-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S128x8192 : Shape := ⟨2, ![128, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)

variable [Facts₀]

class Facts : Prop extends Facts₀ where

variable [Facts]
-- ==== Proof.AffineLaw.lean ====
/-
  The one algebraic law of this certificate, on the extended reals.

  The reference evaluates `((x + 2) · 3 − 5) / 4` and the kernel the collapsed form `x · 3/4 + 1/4`.  For a real
  `x` the two are one number by distributivity: `(3x + 6 − 5) / 4 = 3x/4 + 1/4`.  At `x = ⊤` every step of
  either chain stays at `⊤`: adding or subtracting a real fixes `⊤`, and so does multiplying by a positive real.
  At `x = ⊥` every step stays at `⊥` for the same reasons.  So the two affine maps agree on all of `[-∞, +∞]`
  and the law needs no finiteness hypothesis.  The quotient by `4` is written as the product with the real `1/4`,
  which is what dividing by a nonzero real is on every extended real.
-/
import Mathlib.Data.EReal.Operations

namespace Cert.AffineLaw

/-- `((x + 2) · 3 − 5) · (1/4) = x · (3/4) + 1/4` for every extended real `x`: distributivity on the reals, and
    both sides `⊤` at `⊤` and `⊥` at `⊥`. -/
theorem affine_collapse (x : EReal) :
    ((x + ((2 : ℝ) : EReal)) * ((3 : ℝ) : EReal) - ((5 : ℝ) : EReal)) * ((1 / 4 : ℝ) : EReal)
      = x * ((3 / 4 : ℝ) : EReal) + ((1 / 4 : ℝ) : EReal) := by
  induction x using EReal.rec with
  | bot =>
    rw [EReal.bot_add, EReal.bot_mul_coe_of_pos (by norm_num : (0 : ℝ) < 3), EReal.bot_sub,
      EReal.bot_mul_coe_of_pos (by norm_num : (0 : ℝ) < 1 / 4),
      EReal.bot_mul_coe_of_pos (by norm_num : (0 : ℝ) < 3 / 4), EReal.bot_add]
  | coe r =>
    have h : ((r + 2) * 3 - 5) * (1 / 4) = r * (3 / 4) + 1 / 4 := by ring
    exact_mod_cast h
  | top =>
    rw [EReal.top_add_coe, EReal.top_mul_coe_of_pos (by norm_num : (0 : ℝ) < 3), EReal.top_sub_coe,
      EReal.top_mul_coe_of_pos (by norm_num : (0 : ℝ) < 1 / 4),
      EReal.top_mul_coe_of_pos (by norm_num : (0 : ℝ) < 3 / 4), EReal.top_add_coe]

/-- The squares of the two affine maps agree as well: the result both programs return. -/
theorem square_collapse (x : EReal) :
    (((x + ((2 : ℝ) : EReal)) * ((3 : ℝ) : EReal) - ((5 : ℝ) : EReal)) * ((1 / 4 : ℝ) : EReal))
        * (((x + ((2 : ℝ) : EReal)) * ((3 : ℝ) : EReal) - ((5 : ℝ) : EReal)) * ((1 / 4 : ℝ) : EReal))
      = (x * ((3 / 4 : ℝ) : EReal) + ((1 / 4 : ℝ) : EReal)) * (x * ((3 / 4 : ℝ) : EReal) + ((1 / 4 : ℝ) : EReal)) := by
  rw [affine_collapse]

end Cert.AffineLaw
-- ==== Proof.Literals.lean ====
/-
  The six float constants the two programs spell, as the reals their binary patterns denote.

  All six are dyadic rationals, so each pattern denotes its decimal reading exactly: the reference's `2`, `3`,
  `5`, `4` and the kernel's `0.75 = 3/4` and `0.25 = 1/4`.  A normal single-precision pattern with exponent
  field `E` and fraction field `T` denotes `(2^23 + T) · 2^(E − 150)`; for instance `0.75` has `E = 126` and
  `T = 2^22`, that is `(2^23 + 2^22) · 2^(−24) = 3/4`.
-/
import Idealize.ShloMosaic.PureOps.Ideal

noncomputable section

namespace Cert.Literals

open Idealize.ShloMosaic

/-- `2.0` (sign 0, exponent field 128, fraction 0) denotes the real `2`. -/
theorem word_two : Ideal.ofBits .f32 0x40000000#32 = ((2 : ℝ) : EReal) := by
  simp [Ideal.ofBits, Ideal.ieee, -EReal.coe_mul]; norm_num

/-- `3.0` (exponent field 128, fraction `2^22`) denotes the real `3`. -/
theorem word_three : Ideal.ofBits .f32 0x40400000#32 = ((3 : ℝ) : EReal) := by
  simp [Ideal.ofBits, Ideal.ieee, -EReal.coe_mul]; norm_num

/-- `5.0` (exponent field 129, fraction `2^21`) denotes the real `5`. -/
theorem word_five : Ideal.ofBits .f32 0x40A00000#32 = ((5 : ℝ) : EReal) := by
  simp [Ideal.ofBits, Ideal.ieee, -EReal.coe_mul]; norm_num

/-- `4.0` (exponent field 129, fraction 0) denotes the real `4`. -/
theorem word_four : Ideal.ofBits .f32 0x40800000#32 = ((4 : ℝ) : EReal) := by
  simp [Ideal.ofBits, Ideal.ieee, -EReal.coe_mul]; norm_num

/-- `0.75` (exponent field 126, fraction `2^22`) denotes the real `3/4`. -/
theorem word_three_quarters : Ideal.ofBits .f32 0x3F400000#32 = ((3 / 4 : ℝ) : EReal) := by
  simp [Ideal.ofBits, Ideal.ieee, -EReal.coe_mul]; norm_num

/-- `0.25` (exponent field 125, fraction 0) denotes the real `1/4`. -/
theorem word_quarter : Ideal.ofBits .f32 0x3E800000#32 = ((1 / 4 : ℝ) : EReal) := by
  simp [Ideal.ofBits, Ideal.ieee, -EReal.coe_mul]; norm_num

end Cert.Literals

end
-- ==== Proof.Bridge.lean ====
/-
  The reference's result is the kernel's function of the argument array, index by index.

  At an index `i` the reference's composed term is `q · q` with `q = ((x i + 2) · 3 − 5) / 4`: each of its four
  constants is a scalar broadcast to the whole array, so it reads as the same real at every index, and the host's
  quotient by the real `4` is the product with `1/4`.  The kernel's array is `p · p` with `p = x i · 3/4 + 1/4`.
  The affine law `q = p`, valid on every extended real, joins them; nothing is asked of `x i`.
-/
import proofs.«130381_j76166950027978_2_alg».proof.Proof.Gen.KernelIdeal.Value
import proofs.«130381_j76166950027978_2_alg».proof.Proof.Gen.ReferenceIdeal.Run
import proofs.«130381_j76166950027978_2_alg».proof.Proof.AffineLaw
import proofs.«130381_j76166950027978_2_alg».proof.Proof.Literals

noncomputable section

open Idealize.ShloMosaic Idealize.ShloMosaic.TcCoe Idealize.SL.Sem

namespace Cert.ReferenceIdeal.RefValue

open Cert.ReferenceIdeal Cert.ReferenceIdeal.Gen

/-- The reference's term `(((x + 2) · 3 − 5) / 4)²`, read at the exact extended reals, is the kernel's array
    `(x · 3/4 + 1/4)²` of the same argument: at each index the constants are the reals `2, 3, 5, 4` and `3/4, 1/4`,
    dividing by `4` is multiplying by `1/4`, and the two affine maps agree on every extended real. -/
theorem reference_eq_kernel (x : FVec Ideal S8192x8192 .f32) :
    mulf (Host.divf (subf (mulf (addf x (broadcastInDim S8192x8192 ![] bcast_S_S8192x8192 (constant S_ .f32 0x40000000#32))) (broadcastInDim S8192x8192 ![] bcast_S_S8192x8192 (constant S_ .f32 0x40400000#32))) (broadcastInDim S8192x8192 ![] bcast_S_S8192x8192 (constant S_ .f32 0x40A00000#32))) (broadcastInDim S8192x8192 ![] bcast_S_S8192x8192 (constant S_ .f32 0x40800000#32)))
      (Host.divf (subf (mulf (addf x (broadcastInDim S8192x8192 ![] bcast_S_S8192x8192 (constant S_ .f32 0x40000000#32))) (broadcastInDim S8192x8192 ![] bcast_S_S8192x8192 (constant S_ .f32 0x40400000#32))) (broadcastInDim S8192x8192 ![] bcast_S_S8192x8192 (constant S_ .f32 0x40A00000#32))) (broadcastInDim S8192x8192 ![] bcast_S_S8192x8192 (constant S_ .f32 0x40800000#32)))
    = Cert.KernelIdeal.Value.G1 (F := Ideal) x := by
  funext i
  simp only [Cert.KernelIdeal.Value.G1, mulf, addf, subf, Host.divf, broadcastInDim, constant,
    Ideal.mulf_def, Ideal.addf_def, Ideal.subf_def, Ideal.hostDivf_def, Ideal.ofBits_def,
    Cert.Literals.word_two, Cert.Literals.word_three, Cert.Literals.word_five, Cert.Literals.word_four,
    Cert.Literals.word_three_quarters, Cert.Literals.word_quarter,
    Ideal.div_coe (by norm_num : (4 : ℝ) ≠ 0)]
  exact Cert.AffineLaw.square_collapse (x i)

end Cert.ReferenceIdeal.RefValue

end
-- ==== Proof.lean ====
/-
  The proof of `Cert.Claim` for the elementwise kernel `(x · 3/4 + 1/4)²` over f32[8192, 8192] against the reference
  `(((x + 2) · 3 − 5) / 4)²`.

  The kernel streams the array through in 64 blocks of 128 full rows and writes each block's pointwise result back, so
  its result array is one function of the argument, index by index; the reference is a straight line of four
  broadcast constants and five pointwise operations.  At the exact extended reals the two results are one function:
  all six constants are dyadic and denote their decimal readings exactly, the quotient by `4` is the product with
  `1/4`, and `((x + 2) · 3 − 5) · 1/4 = x · 3/4 + 1/4` holds for every extended real `x` (distributivity on the
  reals; both sides `⊤` at `⊤` and `⊥` at `⊥`), hence so do the squares.  The precondition is therefore never opened.
  The idealization pass rewrote nothing, so the kernel and its idealized form are related trivially.
  Modules: Proof/Literals.lean (the constants), Proof/AffineLaw.lean (the law), Proof/Bridge.lean (the reference's
  term is the kernel's function).
-/
import proofs.«130381_j76166950027978_2_alg».proof.Defs
import proofs.«130381_j76166950027978_2_alg».proof.Proof.Gen.Kernel.Frame
import proofs.«130381_j76166950027978_2_alg».proof.Proof.Gen.KernelIdeal.Value
import proofs.«130381_j76166950027978_2_alg».proof.Proof.Gen.Pre_finite_inputs
import proofs.«130381_j76166950027978_2_alg».proof.Proof.Gen.ReferenceIdeal.Run
import proofs.«130381_j76166950027978_2_alg».proof.Proof.Bridge
import Idealize.ShloMosaic.Adequacy
import Idealize.ShloMosaic.Init

noncomputable section

namespace Cert.Proof

open Idealize.ShloMosaic Idealize.SL.Sem

/-- The idealized kernel terminates without a fault and leaves its argument unchanged: its value run, with the
    statement about the result dropped. -/
theorem frame_KernelIdeal : frame_KernelIdeal := fun m ρ _ =>
  (θ_run Cert.KernelIdeal.defs _ _).mono (fun _ h c => (h c).2) (Cert.KernelIdeal.Value.run (F := Ideal) m ρ)

/-- The same for the idealized reference, from its run. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the argument, the kernel's result array is `(x · 3/4 + 1/4)²` of it and the
    reference's is `(((x + 2) · 3 − 5) / 4)²` of it: one function of `x` on the extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  simp only [hagree c]
  exact Cert.ReferenceIdeal.RefValue.reference_eq_kernel _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
